-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_tau" .f32 0x40555555#32 ((16777216 / 5033165 : ℝ) : EReal)
  ∧ IdealRules.named_const.Statement Cert.KernelIdeal.κ "inv_tau" .f32 0x40555555#32 ((16777216 / 5033165 : ℝ) : EReal)
  ∧ IdealRules.named_const.Statement Cert.KernelIdeal.κ "inv_tau" .f32 0x40555555#32 ((16777216 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S2048x128 : Shape := ⟨2, ![2048, 128]⟩
abbrev S2048 : Shape := ⟨1, ![2048]⟩
abbrev S2048x1 : Shape := ⟨2, ![2048, 1]⟩
abbrev S8192x1 : Shape := ⟨2, ![8192, 1]⟩
abbrev S1024x1 : Shape := ⟨2, ![1024, 1]⟩
abbrev S1024x128 : Shape := ⟨2, ![1024, 128]⟩
abbrev S1024 : Shape := ⟨1, ![1024]⟩
abbrev S128x1024 : Shape := ⟨2, ![128, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S16384x128, .f32⟩
  | .local _ .vmem, ⟨5, _⟩ => ⟨S1024x1, .f32⟩
  | .local _ .vmem, ⟨6, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def k1_mult1 (i : grid1.Coords) : BitVec 32 :=
  let arg0 : BitVec 32 := BitVec.ofNat 32 (i 0).val
  let c1024_i32 : BitVec 32 := 1024#32
  let v0 : BitVec 32 := Scalar.muli arg0 c1024_i32
  v0
def k1_mult2 (i : grid1.Coords) : BitVec 32 :=
  let arg0 : BitVec 32 := BitVec.ofNat 32 (i 0).val
  let c1024_i32 : BitVec 32 := 1024#32
  let v0 : BitVec 32 := Scalar.muli arg0 c1024_i32
  let v1 : BitVec 32 := v0
  let c8192_i32 : BitVec 32 := 8192#32
  let v2 : BitVec 32 := Scalar.addi v1 c8192_i32
  v2
def k1_off1 (i : grid1.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k1_off2 (i : grid1.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c8192_i32 : BitVec 32 := 8192#32
  let v2 : BitVec 32 := Scalar.addi v1 c8192_i32
  let v3 : BitVec 32 := v2
  let v7 : Index := Scalar.indexCast v3
  let c0_0 : Index := 0#32
  ![v7.toNat, 0]
@[reducible] def k1_t1_loop : Scf.Loop 32 :=
  let c0_i32 : BitVec 32 := 0#32
  let c8_i32 : BitVec 32 := 8#32
  let v24 : BitVec 32 := Scalar.addi c0_i32 c8_i32
  let c1_i32 : BitVec 32 := 1#32
  ⟨c0_i32, v24, c1_i32⟩
def k1_mult3 (k1_t1 : Fin k1_t1_loop.trips) : BitVec 32 :=
  let c0_i32 : BitVec 32 := 0#32
  let c1_i32 : BitVec 32 := 1#32
  let arg3 : BitVec 32 := Scf.iv c0_i32 c1_i32 k1_t1
  let c1024_i32_9 : BitVec 32 := 1024#32
  let v33 : BitVec 32 := Scalar.muli arg3 c1024_i32_9
  v33
def k1_mult4 (k1_t1 : Fin k1_t1_loop.trips) : BitVec 32 :=
  let c0_i32 : BitVec 32 := 0#32
  let c1_i32 : BitVec 32 := 1#32
  let arg3 : BitVec 32 := Scf.iv c0_i32 c1_i32 k1_t1
  let c1024_i32_9 : BitVec 32 := 1024#32
  let v33 : BitVec 32 := Scalar.muli arg3 c1024_i32_9
  let v34 : BitVec 32 := v33
  let c8192_i32_10 : BitVec 32 := 8192#32
  let v35 : BitVec 32 := Scalar.addi v34 c8192_i32_10
  v35
def k1_off3 (k1_t1 : Fin k1_t1_loop.trips) : Fin 2 → Nat :=
  let c0_i32 : BitVec 32 := 0#32
  let c1_i32 : BitVec 32 := 1#32
  let arg3 : BitVec 32 := Scf.iv c0_i32 c1_i32 k1_t1
  let c1024_i32_9 : BitVec 32 := 1024#32
  let v33 : BitVec 32 := Scalar.muli arg3 c1024_i32_9
  let v34 : BitVec 32 := v33
  let v37 : Index := Scalar.indexCast v34
  let c0_11 : Index := 0#32
  ![v37.toNat, 0]
def k1_off4 (k1_t1 : Fin k1_t1_loop.trips) : Fin 2 → Nat :=
  let c0_i32 : BitVec 32 := 0#32
  let c1_i32 : BitVec 32 := 1#32
  let arg3 : BitVec 32 := Scf.iv c0_i32 c1_i32 k1_t1
  let c1024_i32_9 : BitVec 32 := 1024#32
  let v33 : BitVec 32 := Scalar.muli arg3 c1024_i32_9
  let v34 : BitVec 32 := v33
  let c8192_i32_10 : BitVec 32 := 8192#32
  let v35 : BitVec 32 := Scalar.addi v34 c8192_i32_10
  let v36 : BitVec 32 := v35
  let v41 : Index := Scalar.indexCast v36
  let c0_12 : Index := 0#32
  ![v41.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S16384x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  bitsLt_bf16_f32 : FTy.bits .bf16 < FTy.bits .f32
  iota_S1024x1_d0_w32 : S1024x1.Iotas .tc 32 [0]
  transposes_S1024x128_p1_0_S128x1024 : S1024x128.Transposes [1, 0] S128x1024
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  inb_S1024x1_S1024x1_0_0 : ∀ a, (![0, 0] : Fin 2 → Nat) a + S1024x1.size a ≤ S1024x1.size a
  h_S1024x1 : 0 < S1024x1.numel
  reducesTo_S8192x1_S_d0_1 : S8192x1.ReducesTo [0, 1] S_
  h_S_ : 0 < S_.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hrank1 : 0 < grid1.rank
  k1_mult1_dvd : ∀ i : grid1.Coords, 1024 ∣ (k1_mult1 i).toNat
  k1_mult2_dvd : ∀ i : grid1.Coords, 1024 ∣ (k1_mult2 i).toNat
  k1_off1_inb : ∀ i : grid1.Coords, ∀ a, (k1_off1 i) a + S1024x128.size a ≤ S16384x128.size a
  k1_off2_inb : ∀ i : grid1.Coords, ∀ a, (k1_off2 i) a + S1024x128.size a ≤ S16384x128.size a
  k1_t1_ok : k1_t1_loop.OK
  k1_mult3_dvd : ∀ k1_t1 : Fin k1_t1_loop.trips, 1024 ∣ (k1_mult3 k1_t1).toNat
  k1_mult4_dvd : ∀ k1_t1 : Fin k1_t1_loop.trips, 1024 ∣ (k1_mult4 k1_t1).toNat
  k1_off3_inb : ∀ k1_t1 : Fin k1_t1_loop.trips, ∀ a, (k1_off3 k1_t1) a + S1024x128.size a ≤ S16384x128.size a
  k1_off4_inb : ∀ k1_t1 : Fin k1_t1_loop.trips, ∀ a, (k1_off4 k1_t1) a + S1024x128.size a ≤ S16384x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16384x128.size a ≤ S16384x128.size a
  hwx1_0 : ∀ i : grid1.Coords, EltTy.bits .f32 = 32 ∨ (Rect.block (s := S16384x128) S16384x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S16384x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S8192x128 : Shape := ⟨2, ![8192, 128]⟩
abbrev S8192x8192 : Shape := ⟨2, ![8192, 8192]⟩
abbrev S128x8192 : Shape := ⟨2, ![128, 8192]⟩
abbrev S8192 : Shape := ⟨1, ![8192]⟩

abbrev nBuf : Space → Nat
  | .hbm => 58
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x128, .f32⟩
  | .hbm, ⟨10, _⟩ => ⟨S16384x128, .f32⟩
  | .hbm, ⟨11, _⟩ => ⟨S8192x128, .f32⟩
  | .hbm, ⟨12, _⟩ => ⟨S8192x128, .f32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S128x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x128, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S128x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_call2_v0 : Ref sig .tc := ⟨.hbm, 43, rfl⟩
abbrev main_call2_v1 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  slices_S16384x128_S8192x128_0_0 : S16384x128.Slices ![0, 0] S8192x128
  slices_S16384x128_S8192x128_8192_0 : S16384x128.Slices ![8192, 0] S8192x128
  bcast_S_S8192x8192 : S_.BroadcastsInDim S8192x8192 (![] : Fin 0 → Fin S8192x8192.rank)
  transposes_S8192x128_S128x8192_1_0 : S8192x128.Transposes [1, 0] S128x8192
  reducesTo_S8192x128_S8192_d1 : S8192x128.ReducesTo [1] S8192
  bcast_S_S8192 : S_.BroadcastsInDim S8192 (![] : Fin 0 → Fin S8192.rank)
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelRun.lean ====
/-
  The tiled program's run with its result named.

  The program is two pipelined regions followed by three host operations (a total sum, a quotient by the pair count, a
  negation). Every weakly fair execution terminates, nothing faulting, and the final state holds, in every buffer
  that is not scoped to a region, the contents obtained by folding the segments over the launch memory: the first
  region's output array as its write-backs leave it, then the second's, then the host operations' results. Read at the
  result buffer this names the program's value; read at the argument it gives the argument back.
-/
import proofs.«121964_j57647051047405_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the argument
    array as launched. -/
theorem run_result : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)), (h c _ (mem_uc main_arg0 (by decide))).trans (W3_main_arg0 m ρ c)⟩)

end Cert.KernelIdeal.RunValue

end
-- ==== Proof.Spec.lean ====
/-
  The row-contrastive loss, as one function of the input array.

  The input is 16384 rows of 128 entries: 8192 "anchor" rows followed by their 8192 "positive" rows. Every row is
  divided by its Euclidean norm (clamped below by a small constant), and for each pair (anchor r, positive r) the
  loss takes the log-ratio of the pair's similarity exp(⟨a_r, p_r⟩/τ) to the product of two sums: the similarities of
  anchor r to every OTHER anchor, and of positive r to every OTHER positive. The loss is minus the mean over r.

  Two spellings of that number are stated here. `lossR` divides each inner product by τ, takes the logarithm of the
  quotient, and is what the plain array program computes. `lossK` multiplies the rows by 1/τ before the inner products
  and subtracts the two logarithms from the scaled pair product; it is what the tiled program computes. They agree on
  real inputs (the module Algebra): every quantity is then a real number, the two sums are positive, and
  log(e^y / (A·P)) = y − log A − log P.
-/
import Idealize.ShloMosaic.PureOps.Ideal.Laws
import Idealize.ShloMosaic.Lib.ValueIdx

noncomputable section

open Idealize.ShloMosaic Idealize.ShloMosaic.ValueIdx

namespace Cert.Contrastive

/-- An array of 16384 rows of 128 extended reals. -/
abbrev Arr := (⟨2, ![16384, 128]⟩ : Shape).Idx → EReal

/-- The lower clamp of a row's norm (the single-precision word nearest 1e-12). -/
def eps : EReal := Ideal.ofBits .f32 0x2B8CBCCC#32
/-- The temperature τ as the array program divides by it: the single-precision word nearest 0.3. -/
def tau : EReal := Ideal.ofBits .f32 0x3E99999A#32
/-- Its reciprocal, 1/τ = 16777216/5033165, as the tiled program multiplies by it. -/
def invTau : EReal := ((16777216 / 5033165 : ℝ) : EReal)
/-- The number of pairs, 8192, as a single-precision word. -/
def count : EReal := Ideal.ofBits .f32 0x46000000#32

/-- A row's clamped Euclidean norm. -/
def rowNorm (z : Arr) (r : Fin 16384) : EReal :=
  max (Ideal.sqrt (∑ d : Fin 128, z (ix2 r d) * z (ix2 r d))) eps

/-- The normalised array: each entry over its row's clamped norm. -/
def unit (z : Arr) (r : Fin 16384) (d : Fin 128) : EReal := Ideal.div (z (ix2 r d)) (rowNorm z r)

/-- Pair r's anchor row. -/
def anchor (r : Fin 8192) : Fin 16384 := ⟨r.val, by omega⟩
/-- Pair r's positive row. -/
def positive (r : Fin 8192) : Fin 16384 := ⟨r.val + 8192, by omega⟩

/-- The inner product of two normalised rows. -/
def dot (z : Arr) (a b : Fin 16384) : EReal := ∑ d : Fin 128, unit z a d * unit z b d
/-- The same with the first row scaled by 1/τ entry by entry. -/
def dotScaled (z : Arr) (a b : Fin 16384) : EReal := ∑ d : Fin 128, (unit z a d * invTau) * unit z b d

/-! ## Dividing by τ -/

/-- The sum of row r's similarities to every other row of its half (`half` is `anchor` or `positive`). -/
def othersR (z : Arr) (half : Fin 8192 → Fin 16384) (r : Fin 8192) : EReal :=
  ∑ s : Fin 8192, if r = s then 0 else Ideal.exp (Ideal.div (dot z (half r) (half s)) tau)

/-- Pair r's log-ratio. -/
def rowR (z : Arr) (r : Fin 8192) : EReal :=
  Ideal.log (Ideal.div (Ideal.exp (Ideal.div (dot z (anchor r) (positive r)) tau))
    (othersR z anchor r * othersR z positive r))

/-- Minus the mean log-ratio. -/
def lossR (z : Arr) : EReal := -(Ideal.div (∑ r : Fin 8192, rowR z r) count)

/-! ## Multiplying by 1/τ -/

def othersK (z : Arr) (half : Fin 8192 → Fin 16384) (r : Fin 8192) : EReal :=
  ∑ s : Fin 8192, if r = s then 0 else Ideal.exp (dotScaled z (half r) (half s))

def rowK (z : Arr) (r : Fin 8192) : EReal :=
  dot z (anchor r) (positive r) * invTau - Ideal.log (othersK z anchor r) - Ideal.log (othersK z positive r)

def lossK (z : Arr) : EReal := -(Ideal.div (∑ r : Fin 8192, rowK z r) count)

end Cert.Contrastive

end
-- ==== Proof.HostTail.lean ====
/-
  The host operations after the two regions, as one function of the second region's output.

  The second region leaves an array of 8192 row terms; the program's result is minus their mean: the total sum (from
  zero), divided by the pair count, negated.
-/
import proofs.«121964_j57647051047405_2_alg».proof.Proof.Gen.KernelIdeal.Frame
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.StableHlo

variable {F : FTy → Type} [FloatOps F] [Named F]

/-- Minus the mean of the 8192 row terms. -/
def meanNeg (x : (⟨S8192x1, .f32⟩ : BufTy).Contents (Elt F)) : (⟨S_, .f32⟩ : BufTy).Contents (Elt F) :=
  Host.negf (Host.divf (Host.reduceAdd x (constant (F := F) S_ .f32 0x00000000#32) reducesTo_S8192x1_S_d0_1 h_S_)
    (constant (F := F) S_ .f32 0x46000000#32))

variable (m : (ℓ : Loc nD τ sig) → Buf (Elt F) ℓ) (ρ : Dev nD → PrngReg)

/-- The result buffer after the host operations is `meanNeg` of the second region's output array. -/
theorem result_eq (c : Dev nD) :
    W3 m ρ c (Proc.devRef .tc main_v4) = meanNeg (F := F) (W2 m ρ c (Proc.devRef .tc main_v1)) := by
  show StableHlo.after hostOps2 (W2 m ρ c) (Proc.devRef .tc main_v4) = _
  after_results
  rfl

end Cert.KernelIdeal.RunValue

end
-- ==== Proof.Sums.lean ====
/-
  Three re-indexings of finite sums.

  Eight tiles of 1024 consecutive columns make up the 8192 columns: column j · 1024 + s of tile j is column number
  j · 1024 + s, and every column below 8192 is reached exactly once. A sum over the indices of a column array of
  8192 rows and one column, and a sum over the indices of a vector of 8192 entries, are sums over the 8192 rows.
-/
import Idealize.ShloMosaic.PureOps.Ideal.Laws
import Idealize.ShloMosaic.Lib.ValueIdx

noncomputable section

open Idealize.ShloMosaic Idealize.ShloMosaic.ValueIdx

namespace Cert.Contrastive

/-- m blocks of n consecutive naturals are the first m · n naturals. -/
theorem sum_blocks {M : Type*} [AddCommMonoid M] (h : ℕ → M) (n m : ℕ) :
    ∑ j ∈ Finset.range m, ∑ s ∈ Finset.range n, h (j * n + s) = ∑ k ∈ Finset.range (m * n), h k := by
  induction m with
  | zero => simp
  | succ m ih => rw [Finset.sum_range_succ, ih, Nat.succ_mul, Finset.sum_range_add]

/-- Eight tiles of 1024 consecutive columns make up the 8192 columns. -/
theorem sum_tiles (h : ℕ → EReal) :
    ∑ j ∈ Finset.range 8, ∑ s : Fin 1024, h (j * 1024 + s.val) = ∑ s : Fin 8192, h s.val := by
  rw [Fin.sum_univ_eq_sum_range (fun k => h k) 8192, show 8192 = 8 * 1024 from rfl, ← sum_blocks h 1024 8]
  refine Finset.sum_congr rfl fun j _ => ?_
  exact Fin.sum_univ_eq_sum_range (fun s => h (j * 1024 + s)) 1024

/-- A sum over a column array's indices is the sum over its rows. -/
theorem sum_column (x : (⟨2, ![8192, 1]⟩ : Shape).Idx → EReal) : ∑ i, x i = ∑ r : Fin 8192, x (ix2 r (0 : Fin 1)) := by
  rw [sum_idx2]
  refine Finset.sum_congr rfl fun r _ => ?_
  exact Fin.sum_univ_one _

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a vector's indices is the sum over its entries. -/
theorem sum_vector (x : (⟨1, ![8192]⟩ : Shape).Idx → EReal) : ∑ i, x i = ∑ r : Fin 8192, x (ix1 r) := by
  rw [← Equiv.sum_comp (idxEquiv1 (n := 8192)).symm x]
  rfl

end Cert.Contrastive

end
-- ==== Proof.TailValue.lean ====
/-
  The tiled program's closing host operations, at the ideal values.

  The host takes the array of 8192 row terms, adds them all up from zero, divides the total by the pair count and
  negates the quotient. At the ideal values the total is the exact sum over the array's indices, the initial word is
  the extended real zero, and a sum over the indices of a one-column array is the sum over its rows.
-/
import proofs.«121964_j57647051047405_2_alg».proof.Proof.HostTail
import proofs.«121964_j57647051047405_2_alg».proof.Proof.Spec
import proofs.«121964_j57647051047405_2_alg».proof.Proof.Sums
import Idealize.ShloMosaic.PureOps.Ideal.Laws
import Idealize.ShloMosaic.Lib.ValueIdx

noncomputable section

namespace Cert.KernelIdeal.RunValue

open Cert.KernelIdeal Cert.KernelIdeal.Gen Cert.Contrastive
open Idealize.ShloMosaic Idealize.ShloMosaic.ValueIdx

/-- Minus the mean of the row terms is minus the sum over the 8192 rows divided by the pair count. -/
theorem meanNeg_eq (x : (⟨S8192x1, .f32⟩ : BufTy).Contents (Elt Ideal)) :
    meanNeg (F := Ideal) x = fun _ => -(Ideal.div (∑ r : Fin 8192, x (ix2 r (0 : Fin 1))) count) := by
  funext i
  unfold meanNeg
  simp only [Host.negf, Host.divf, Host.reduceAdd, Ideal.hostNegf_def, Ideal.negf_def, Ideal.hostDivf_def,
    Ideal.hostReduceAdd_def]
  rw [Ideal.hostReduceAdd_total reducesTo_S8192x1_S_d0_1 (fun b => b.elim0) x _ i]
  rw [constant_apply, constant_apply, Ideal.ofBits_zero_f32, zero_add]
  exact congrArg (fun t => -Ideal.div t count) (sum_column x)

end Cert.KernelIdeal.RunValue

end
-- ==== Proof.Payloads.lean ====
/-
  The two tiled programs' pure arithmetic, read at an index, on the extended reals.

  The normalising program divides every entry of a 2048 × 128 block by its row's Euclidean norm clamped below. The
  row program, for a block of 1024 anchor rows and their 1024 positive rows, carries two columns of partial sums
  through eight trips; trip k adds to row r the sum over the 1024 rows s of block k of exp ⟨(1/τ)·u_r, u_s⟩, the term
  of the row itself (global row numbers equal) left out; after the last trip it subtracts the two logarithms from the
  pair's scaled inner product. Each statement below reads one of these values at coordinates: the layout operations
  (shape casts, broadcasts, the transpose) move coordinates, the sums along an axis are finite sums over that axis,
  and the matrix product is the sum over the contracted axis.
-/
import proofs.«121964_j57647051047405_2_alg».proof.Proof.Gen.KernelIdeal.Skeleton
import proofs.«121964_j57647051047405_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Affine

noncomputable section

namespace Cert.KernelIdeal.Payloads

open Cert.KernelIdeal Cert.KernelIdeal.Gen Cert.Contrastive Idealize.ShloMosaic Idealize.ShloMosaic.ValueIdx

/-! ## The layout operations of the two programs, read at an index given by coordinates -/

/-- A vector of length n viewed as an n × 1 column reads, at (p, u), the vector at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a × 1 column broadcast along the rows reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the second axis of an a × b array, read at p: the sum over the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ d : Fin b, src (ix2 p d) := by
  rw [Ideal.multiReduction_add_single src acc h hφ hacc (ix1 p)]
  show ∑ d : Fin b, src (h.lift (ix1 p) d) = _
  refine Finset.sum_congr rfl fun d _ => congrArg src ?_
  exact funext fun ax => Fin.ext (by match ax with | ⟨0, _⟩ => rfl | ⟨1, _⟩ => rfl)

/-! ## The normalising program -/

/-- The normalising program's result at (p, q): the entry over its row's clamped Euclidean norm. -/
theorem norm_at (x : Vec Ideal S2048x128 .f32) (p : Fin 2048) (q : Fin 128) :
    k0_pay1 (F := Ideal) x (ix2 p q)
      = Ideal.div (x (ix2 p q)) (max (Ideal.sqrt (∑ d : Fin 128, x (ix2 p d) * x (ix2 p d))) eps) := by
  unfold k0_pay1
  rw [divf_apply, broadcastTo_a1_ab_apply, maximumf_apply, broadcast_apply]
  show Ideal.div _ (max (Ideal.sqrt (shapeCast S2048x1 _ _ (ix2 p 0))) eps) = _
  rw [shapeCast_a_a1_apply]
  exact congrArg (fun t => Ideal.div (x (ix2 p q)) (max (Ideal.sqrt t) eps))
    (rowSum_apply (mulf x x) _ _ _ _ p)

/-! ## The row program -/

/-- The named constant of the row program is the rational 1/τ. -/
theorem inv_tau_eq : Named.named (F := Ideal) κ "inv_tau" (φ := .f32) 0x40555555#32 = invTau :=
  IdealRules.named_const.ideal_named_scalar _ _ _ _ rfl

/-- The row program's stored value at row r: the pair's inner product times 1/τ, minus the logarithms of the two
    carried sums. -/
theorem row_at (v5 v8 : Vec Ideal S1024x128 .f32) (a b : FVec Ideal S1024x1 .f32) (r : Fin 1024) :
    k1_pay8 (F := Ideal) v5 v8 a b (ix2 r 0)
      = (∑ d : Fin 128, v5 (ix2 r d) * v8 (ix2 r d)) * invTau - Ideal.log (a (ix2 r 0)) - Ideal.log (b (ix2 r 0)) := by
  unfold k1_pay8 k1_pay1 k1_pay2
  rw [subf_apply, subf_apply, mulf_apply, broadcast_apply, shapeCast_a_a1_apply, inv_tau_eq, shapeCast_self,
    shapeCast_self]
  exact congrArg (fun t => t * invTau - Ideal.log (a (ix2 r 0)) - Ideal.log (b (ix2 r 0)))
    (rowSum_apply (mulf v5 v8) _ _ _ _ r)

/-- Two words below 2³² written from naturals are equal exactly when the naturals are. -/
theorem cmpi_eq_ofNat (A B : ℕ) (hA : A < 2 ^ 32) (hB : B < 2 ^ 32) :
    IntOp.cmpi .eq (BitVec.ofNat 32 A) (BitVec.ofNat 32 B) = if A = B then 1#1 else 0#1 := by
  by_cases h : A = B
  · subst h; rw [if_pos rfl]; exact IntOp.cmpi_eq.2 rfl
  · rw [if_neg h]
    refine eq_zero_of_ne_one fun h1 => h ?_
    have h2 := congrArg BitVec.toNat (IntOp.cmpi_eq.1 h1)
    rw [BitVec.toNat_ofNat, BitVec.toNat_ofNat, Nat.mod_eq_of_lt hA, Nat.mod_eq_of_lt hB] at h2
    exact h2

/-- The mask of trip k at (r, s): set exactly when row r of block i and row s of block k are the same row. -/
theorem mask_at (i : grid1.Coords) (k : Fin k1_t1_loop.trips) (r s : Fin 1024) :
    k1_pay5 i k (ix2 r s) = if (i 0).val * 1024 + r.val = k.val * 1024 + s.val then 1#1 else 0#1 := by
  have hi : (i 0).val < 8 := (i 0).isLt
  have hk : k.val < 8 := Nat.lt_of_lt_of_le k.isLt k1_t1_abs.2.1
  have hr := r.isLt
  have hs := s.isLt
  unfold k1_pay5
  show IntOp.cmpi .eq (broadcastTo S1024x1024 _ _ (ix2 r s)) (broadcastTo S1024x1024 _ _ (ix2 r s)) = _
  rw [broadcastTo_a1_ab_apply, broadcastTo_1b_ab_apply]
  show IntOp.cmpi .eq (IntOp.addi _ (iota .tc S1024x1 32 [0] _ (ix2 r 0)))
    (IntOp.addi _ (iota .tc S1x1024 32 [1] _ (ix2 0 s))) = _
  rw [iota_single_apply, iota_single_apply]
  have hL : IntOp.addi (broadcast S1024x1 (Scalar.muli (BitVec.ofNat 32 (i 0).val) 1024#32) (ix2 r (0 : Fin 1)))
      (BitVec.ofNat 32 r.val) = BitVec.ofNat 32 ((i 0).val * 1024 + r.val) := by
    show BitVec.ofNat 32 (i 0).val * 1024#32 + BitVec.ofNat 32 r.val = _
    apply BitVec.eq_of_toNat_eq
    simp only [BitVec.toNat_add, BitVec.toNat_mul, BitVec.toNat_ofNat, Nat.reducePow, Nat.reduceMod]
    omega
  have hR : IntOp.addi (broadcast S1x1024 (Scalar.muli (Scf.iv 0#32 1#32 k.val) 1024#32) (ix2 (0 : Fin 1) s))
      (BitVec.ofNat 32 s.val) = BitVec.ofNat 32 (k.val * 1024 + s.val) := by
    show (0#32 + BitVec.ofNat 32 k.val * 1#32) * 1024#32 + BitVec.ofNat 32 s.val = _
    apply BitVec.eq_of_toNat_eq
    simp only [BitVec.toNat_add, BitVec.toNat_mul, BitVec.toNat_ofNat, Nat.reducePow, Nat.reduceMod]
    omega
  exact (congrArg₂ (IntOp.cmpi .eq) hL hR).trans (cmpi_eq_ofNat _ _ (by omega) (by omega))

/-! ### The matrix product at an index -/

theorem dot_lhs_0 (j : S1024x1024.Idx) (q : dot_S1024x128_S128x1024_S1024x1024_1_0_0_1_n_n.contr.Idx) :
    (dot_S1024x128_S128x1024_S1024x1024_1_0_0_1_n_n.lhsIdx j q 0).val = (j 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem dot_lhs_1 (j : S1024x1024.Idx) (q : dot_S1024x128_S128x1024_S1024x1024_1_0_0_1_n_n.contr.Idx) :
    (dot_S1024x128_S128x1024_S1024x1024_1_0_0_1_n_n.lhsIdx j q 1).val = (q ⟨0, by decide⟩).val :=
  dot_S1024x128_S128x1024_S1024x1024_1_0_0_1_n_n.lhsIdx_val_of_single rfl j q
theorem dot_rhs_0 (j : S1024x1024.Idx) (q : dot_S1024x128_S128x1024_S1024x1024_1_0_0_1_n_n.contr.Idx) :
    (dot_S1024x128_S128x1024_S1024x1024_1_0_0_1_n_n.rhsIdx j q 0).val = (q ⟨0, by decide⟩).val :=
  dot_S1024x128_S128x1024_S1024x1024_1_0_0_1_n_n.rhsIdx_val_of_single rfl j q
theorem dot_rhs_1 (j : S1024x1024.Idx) (q : dot_S1024x128_S128x1024_S1024x1024_1_0_0_1_n_n.contr.Idx) :
    (dot_S1024x128_S128x1024_S1024x1024_1_0_0_1_n_n.rhsIdx j q 1).val = (j 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The matrix product of a 1024 × 128 array with a 128 × 1024 array into a zero accumulator, at (r, s): the sum over
    the contracted axis of the products. -/
theorem matmul_at (lhs : FVec Ideal S1024x128 .bf16) (rhs : FVec Ideal S128x1024 .bf16) (r s : Fin 1024) :
    matmul dot_S1024x128_S128x1024_S1024x1024_1_0_0_1_n_n none lhs rhs (constant S1024x1024 .f32 0x00000000#32) (ix2 r s)
      = ∑ d : Fin 128, lhs (ix2 r d) * rhs (ix2 d s) := by
  show FloatOps.matmul dot_S1024x128_S128x1024_S1024x1024_1_0_0_1_n_n none lhs rhs (constant S1024x1024 .f32 0x00000000#32) (ix2 r s) = _
  rw [Ideal.matmul_constant_zero_apply,
    ← Equiv.sum_comp (contrEquiv1 dot_S1024x128_S128x1024_S1024x1024_1_0_0_1_n_n 128 rfl rfl).symm]
  refine Finset.sum_congr rfl fun d _ => ?_
  have hd := contrEquiv1_symm_val dot_S1024x128_S128x1024_S1024x1024_1_0_0_1_n_n 128 rfl rfl d
  have el : dot_S1024x128_S128x1024_S1024x1024_1_0_0_1_n_n.lhsIdx (ix2 r s)
      ((contrEquiv1 dot_S1024x128_S128x1024_S1024x1024_1_0_0_1_n_n 128 rfl rfl).symm d) = ix2 r d :=
    funext fun a => Fin.ext (by
      match a with
      | ⟨0, _⟩ => exact dot_lhs_0 _ _
      | ⟨1, _⟩ => exact (dot_lhs_1 _ _).trans hd)
  have er : dot_S1024x128_S128x1024_S1024x1024_1_0_0_1_n_n.rhsIdx (ix2 r s)
      ((contrEquiv1 dot_S1024x128_S128x1024_S1024x1024_1_0_0_1_n_n 128 rfl rfl).symm d) = ix2 d s :=
    funext fun a => Fin.ext (by
      match a with
      | ⟨0, _⟩ => exact (dot_rhs_0 _ _).trans hd
      | ⟨1, _⟩ => exact dot_rhs_1 _ _)
  rw [el, er]

/-! ### One trip of the two carried sums -/

/-- Trip k adds to the anchors' carried sum at row r the similarities of row r to the rows of block k, its own row left
    out. -/
theorem acc_a_at (i : grid1.Coords) (v5 : Vec Ideal S1024x128 .f32) (k : Fin k1_t1_loop.trips)
    (acc : FVec Ideal S1024x1 .f32) (v38 : Vec Ideal S1024x128 .f32) (r : Fin 1024) :
    k1_pay6 (F := Ideal) i v5 k acc v38 (ix2 r 0)
      = acc (ix2 r 0) + ∑ s : Fin 1024, (if (i 0).val * 1024 + r.val = k.val * 1024 + s.val then 0
          else Ideal.exp (∑ d : Fin 128, (v5 (ix2 r d) * invTau) * v38 (ix2 s d))) := by
  unfold k1_pay6 k1_pay1
  rw [addf_apply, shapeCast_a_a1_apply]
  refine congrArg (acc (ix2 r 0) + ·) ((rowSum_apply _ _ _ _ _ r).trans (Finset.sum_congr rfl fun s _ => ?_))
  rw [select_apply, mask_at]
  by_cases hrs : (i 0).val * 1024 + r.val = k.val * 1024 + s.val
  · rw [if_pos hrs, if_pos hrs, select_one]
    exact Ideal.ofBits_zero_f32
  · rw [if_neg hrs, if_neg hrs, select_zero]
    show Ideal.exp (matmul (F := Ideal) dot_S1024x128_S128x1024_S1024x1024_1_0_0_1_n_n none _ _ _ (ix2 r s)) = _
    rw [matmul_at]
    refine congrArg Ideal.exp (Finset.sum_congr rfl fun d _ => ?_)
    rw [truncf_apply, mulf_apply, shapeCast_self, broadcast_apply, inv_tau_eq, transpose_ix2_apply, truncf_apply,
      shapeCast_self]

/-- The same for the positives' carried sum. -/
theorem acc_p_at (i : grid1.Coords) (v8 : Vec Ideal S1024x128 .f32) (k : Fin k1_t1_loop.trips)
    (acc : FVec Ideal S1024x1 .f32) (v42 : Vec Ideal S1024x128 .f32) (r : Fin 1024) :
    k1_pay7 (F := Ideal) i v8 k acc v42 (ix2 r 0)
      = acc (ix2 r 0) + ∑ s : Fin 1024, (if (i 0).val * 1024 + r.val = k.val * 1024 + s.val then 0
          else Ideal.exp (∑ d : Fin 128, (v8 (ix2 r d) * invTau) * v42 (ix2 s d))) := by
  unfold k1_pay7 k1_pay2
  rw [addf_apply, shapeCast_a_a1_apply]
  refine congrArg (acc (ix2 r 0) + ·) ((rowSum_apply _ _ _ _ _ r).trans (Finset.sum_congr rfl fun s _ => ?_))
  rw [select_apply, mask_at]
  by_cases hrs : (i 0).val * 1024 + r.val = k.val * 1024 + s.val
  · rw [if_pos hrs, if_pos hrs, select_one]
    exact Ideal.ofBits_zero_f32
  · rw [if_neg hrs, if_neg hrs, select_zero]
    show Ideal.exp (matmul (F := Ideal) dot_S1024x128_S128x1024_S1024x1024_1_0_0_1_n_n none _ _ _ (ix2 r s)) = _
    rw [matmul_at]
    refine congrArg Ideal.exp (Finset.sum_congr rfl fun d _ => ?_)
    rw [truncf_apply, mulf_apply, shapeCast_self, broadcast_apply, inv_tau_eq, transpose_ix2_apply, truncf_apply,
      shapeCast_self]

end Cert.KernelIdeal.Payloads

end
-- ==== Proof.Normalize.lean ====
/-
  The first region: every row of the input divided by its clamped Euclidean norm.

  The region walks eight blocks of 2048 rows; at each it loads the block, computes each row's norm from that row
  alone, and stores the quotient block. A row's result depends only on that row, so the eight blocks are the
  restrictions of one whole-array function, `normalised`, and since the blocks tile the array the output array ends
  holding it.
-/
import proofs.«121964_j57647051047405_2_alg».proof.Proof.Gen.KernelIdeal.Frame
import proofs.«121964_j57647051047405_2_alg».proof.Proof.Spec
import proofs.«121964_j57647051047405_2_alg».proof.Proof.Payloads
import Idealize.ShloMosaic.Lib.Pipeline.Value
import Idealize.ShloMosaic.Lib.ValueIdx

set_option maxRecDepth 16384

noncomputable section

namespace Cert.KernelIdeal.Normalize

open Cert.KernelIdeal Cert.KernelIdeal.Gen Cert.Contrastive
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The normalised array, entry by entry. -/
def normalised (x : S16384x128.Idx → EReal) : S16384x128.Idx → EReal := fun k => unit x (k 0) (k 1)

theorem hz : (![0, 0] : Fin 2 → Nat) = fun _ => 0 := funext fun a => by fin_cases a <;> rfl

/-- Block t of either window starts at row 2048·t, column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t is rows 2048·t … 2048·t + 2047 of the input. -/
theorem iblk0_apply (c : Dev nD) (t : Fin cfg0.N) (x : S2048x128.Idx) (k : S16384x128.Idx)
    (hk0 : (k 0).val = 2048 * t.val + (x 0).val) (hk1 : (k 1).val = (x 1).val) :
    (iblk0 V c 0 t : Vec Ideal S2048x128 .f32) x = (V c main_arg0 : S16384x128.Idx → EReal) k := by
  obtain ⟨e0, e1, -, -⟩ := idx0 t
  unfold iblk0
  rw [View.read_apply]
  show (V c main_arg0 : S16384x128.Idx → EReal) _ = (V c main_arg0 : S16384x128.Idx → EReal) k
  congr 1
  funext a
  apply Fin.ext
  match a with
  | ⟨0, _⟩ => show win0_0.index t 0 * 2048 + 1 * (x 0).val = (k 0).val; rw [e0, hk0]; omega
  | ⟨1, _⟩ => show win0_0.index t 1 * 128 + 1 * (x 1).val = (k 1).val; rw [e1, hk1]; omega

/-- What point t writes back is block t of the normalised array. -/
theorem flushed0_eq (c : Dev nD) (t : Fin cfg0.N) :
    (dat0 V c).flushed 1 t = ((cfg0.win 1).blk t).view.read (Elt Ideal) (normalised (V c main_arg0)) := by
  show (cfg0.win 1).cut (grid0.coords t) ((dat0 V c).after 1 t) = _
  rw [after0_1]
  unfold out0_1
  rw [View.canon_unit_zero hz]
  simp only [View.ld_unit_zero (S := S2048x128) hz]
  obtain ⟨-, -, e2, e3⟩ := idx0 t
  funext j
  have hj0 : (j 0).val < 2048 := (j 0).isLt
  have hj1 : (j 1).val < 128 := (j 1).isLt
  show k0_pay1 (iblk0 V c 0 t) j = normalised (V c main_arg0) (((cfg0.win 1).blk t).view.emb j)
  have hK0 : ((((cfg0.win 1).blk t).view.emb j) 0).val = 2048 * t.val + (j 0).val := by
    show win0_1.index t 0 * 2048 + 1 * (j 0).val = _; rw [e2]; omega
  have hK1 : ((((cfg0.win 1).blk t).view.emb j) 1).val = (j 1).val := by
    show win0_1.index t 1 * 128 + 1 * (j 1).val = _; rw [e3]; omega
  generalize ((cfg0.win 1).blk t).view.emb j = K at hK0 hK1
  have hj : j = ix2 (n0 := 2048) (n1 := 128) ⟨(j 0).val, hj0⟩ ⟨(j 1).val, hj1⟩ :=
    funext fun a => Fin.ext (by match a with | ⟨0, _⟩ => rfl | ⟨1, _⟩ => rfl)
  rw [hj]
  refine (Cert.KernelIdeal.Payloads.norm_at (iblk0 V c 0 t) ⟨(j 0).val, hj0⟩ ⟨(j 1).val, hj1⟩).trans ?_
  unfold normalised unit rowNorm
  have hrow : ∀ d : Fin 128, (iblk0 V c 0 t : Vec Ideal S2048x128 .f32) (ix2 (n0 := 2048) (n1 := 128) ⟨(j 0).val, hj0⟩ d)
      = (V c main_arg0 : S16384x128.Idx → EReal) (ix2 (n0 := 16384) (n1 := 128) (K 0) d) :=
    fun d => iblk0_apply V c t _ _ hK0 rfl
  have hK : K = ix2 (n0 := 16384) (n1 := 128) (K 0) (K 1) := eq_ix2 K
  have hq : (⟨(j 1).val, hj1⟩ : Fin 128) = K 1 := Fin.ext hK1.symm
  rw [hq]
  simp only [hrow]
  exact congrArg (fun a => Ideal.div a _) (hrow (K 1))

/-- Every entry of the output array lies in the block of the point that owns its row. -/
theorem cover0 (i : S16384x128.Idx) :
    ∃ t : Fin cfg0.N, (cfg0.win 1).flush t = true ∧ i ∈ ((cfg0.win 1).blk t).view.set := by
  have hi0 : (i 0).val < 16384 := (i 0).isLt
  have hi1 : (i 1).val < 128 := (i 1).isLt
  have h8 : cfg0.N = 8 := N_0
  obtain ⟨t, ht⟩ : ∃ t : Fin cfg0.N, t.val = (i 0).val / 2048 := ⟨⟨(i 0).val / 2048, by omega⟩, rfl⟩
  obtain ⟨-, -, e2, e3⟩ := idx0 t
  refine ⟨t, flush0_1 t, ?_⟩
  show i ∈ ((View.whole main_v0).slice (win0_1.rect t)).set
  rw [View.set_slice_whole, Rect.mem_set_unit]
  intro a
  match a with
  | ⟨0, _⟩ => show win0_1.index t 0 * 2048 ≤ (i 0).val ∧ (i 0).val < win0_1.index t 0 * 2048 + 2048; rw [e2, ht]; omega
  | ⟨1, _⟩ => show win0_1.index t 1 * 128 ≤ (i 1).val ∧ (i 1).val < win0_1.index t 1 * 128 + 128; rw [e3]; omega

/-- The output array after the region is the normalised input. -/
theorem final0 (c : Dev nD) : (dat0 V c).arrAt 1 cfg0.N = normalised (V c main_arg0) :=
  (dat0 V c).arrAt_eq_of_cover 1 (normalised (V c main_arg0)) (fun t _ => flushed0_eq V c t) cover0

end Cert.KernelIdeal.Normalize

end
-- ==== Proof.RowBlocks.lean ====
/-
  What the second region's body leaves in its output block, as pure arithmetic of the normalised array.

  At grid point i the body loads the anchor rows [1024·i, 1024·i + 1024) and their positive rows 8192 further down,
  then walks eight column tiles: tile k loads rows [1024·k, …) of each half and adds, to each of two running row
  sums, that tile's off-diagonal exponentials. The pair of running sums before tile k is a recursion on k from
  (0, 0); after the eighth tile the body stores one column of 1024 row terms. Here that is read off the body's run:
  the stored block is the row-term payload of the two loads and the recursion's eighth value.
-/
import proofs.«121964_j57647051047405_2_alg».proof.Proof.Gen.KernelIdeal.Frame
import Idealize.ShloMosaic.Lib.Pipeline.Value

set_option maxRecDepth 16384

noncomputable section

namespace Cert.KernelIdeal.RowBlocks

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- The 1024 rows of the array starting at row `off 0`. -/
abbrev rows (x0 : Vec F S16384x128 .f32) (off : Fin 2 → Nat) (inb : ∀ a, off a + S1024x128.size a ≤ S16384x128.size a) :
    Vec F S1024x128 .f32 :=
  View.ld x0 (Rect.unit (s := S16384x128) off S1024x128.size inb)

/-- The two running row sums before column tile `k`: zero, then each tile's contribution added. -/
def carried (i : grid1.Coords) (x0 : Vec F S16384x128 .f32) : ℕ → FVec F S1024x1 .f32 × FVec F S1024x1 .f32
  | 0 => (k1_pay3, k1_pay4)
  | k + 1 =>
    if h : k < k1_t1_loop.trips then
      (k1_pay6 i (rows x0 (k1_off1 i) (k1_off1_inb i)) ⟨k, h⟩ (carried i x0 k).1 (rows x0 (k1_off3 ⟨k, h⟩) (k1_off3_inb ⟨k, h⟩)),
       k1_pay7 i (rows x0 (k1_off2 i) (k1_off2_inb i)) ⟨k, h⟩ (carried i x0 k).2 (rows x0 (k1_off4 ⟨k, h⟩) (k1_off4_inb ⟨k, h⟩)))
    else carried i x0 k

/-- One tile's step, read off the run of the loop's region. -/
theorem trip_eq (c : Dev nD) (i : grid1.Coords) (arg1 : Memref sig .tc .vmem S16384x128 .f32) (harg1 : arg1.IsWhole)
    (arg2 : Memref sig .tc .vmem S1024x1 .f32) (harg2 : arg2.IsWhole) (v5 v8 : Vec F S1024x128 .f32)
    (x0 : Vec F S16384x128 .f32) (k : Fin k1_t1_loop.trips) (acc : FVec F S1024x1 .f32 × FVec F S1024x1 .f32) :
    tripR_k1_t1 (F := F) Variants.none c none i arg1 harg1 arg2 harg2 v5 v8 (harg1.unread x0) k acc
      = (k1_pay6 i v5 k acc.1 (rows x0 (k1_off3 k) (k1_off3_inb k)), k1_pay7 i v8 k acc.2 (rows x0 (k1_off4 k) (k1_off4_inb k))) := by
  unfold tripR_k1_t1 trip_k1_t1
  dsimp only
  simp only [View.readAt_eq_ld, harg1.read_unread]

/-- The loop's carried value before tile `n` is the recursion. -/
theorem st_eq (c : Dev nD) (i : grid1.Coords) (arg1 : Memref sig .tc .vmem S16384x128 .f32) (harg1 : arg1.IsWhole)
    (arg2 : Memref sig .tc .vmem S1024x1 .f32) (harg2 : arg2.IsWhole) (x0 : Vec F S16384x128 .f32) (n : ℕ) :
    st_k1_t1 (F := F) Variants.none c none i arg1 harg1 arg2 harg2 (rows x0 (k1_off1 i) (k1_off1_inb i)) (rows x0 (k1_off2 i) (k1_off2_inb i))
        (harg1.unread x0) (k1_pay3, k1_pay4) n
      = carried i x0 n := by
  induction n with
  | zero => rfl
  | succ n ih =>
    rw [st_k1_t1.eq_2, carried]
    unfold st_k1_t1Step
    by_cases h : n < k1_t1_loop.trips
    · rw [dif_pos h, dif_pos h, ih, trip_eq]
    · rw [dif_neg h, dif_neg h, ih]

theorem hz : (![0, 0] : Fin 2 → Nat) = fun _ => 0 := funext fun a => by fin_cases a <;> rfl

/-- The stored block: the row-term payload of the two loads and the running sums after the eighth tile. -/
theorem out_eq (c : Dev nD) (i : grid1.Coords) (arg1 : Memref sig .tc .vmem S16384x128 .f32) (harg1 : arg1.IsWhole)
    (arg2 : Memref sig .tc .vmem S1024x1 .f32) (harg2 : arg2.IsWhole) (x0 : Vec F S16384x128 .f32) :
    out1_A_1 (F := F) c i arg1 harg1 arg2 harg2 x0
      = k1_pay8 (rows x0 (k1_off1 i) (k1_off1_inb i)) (rows x0 (k1_off2 i) (k1_off2_inb i))
          (carried i x0 8).1 (carried i x0 8).2 := by
  unfold out1_A_1
  rw [View.read_writes_eq_canon _ _ _ (cover1_A_1 c i arg1 harg1 arg2 harg2 x0)]
  unfold kernelRun1_A
  dsimp only
  rw [View.canon_unit_zero hz]
  simp only [View.readAt_eq_ld, harg1.read_unread]
  rw [show Scf.trips (0#32) (Scalar.addi 0#32 8#32) 1#32 = 8 from by decide]
  rw [st_eq]

end Cert.KernelIdeal.RowBlocks

end
-- ==== Proof.RowRegion.lean ====
/-
  The second region's blocks.

  Its input window is the whole normalised array at every one of the eight grid points; its output window is a column
  of 8192 entries written back in eight blocks of 1024. So the output array ends holding any function G of its index
  that agrees, at row 1024·t + r, with what point t's body leaves at row r of its block.
-/
import proofs.«121964_j57647051047405_2_alg».proof.Proof.Gen.KernelIdeal.Frame
import Idealize.ShloMosaic.Lib.Pipeline.Value
import Idealize.ShloMosaic.Lib.ValueIdx

set_option maxRecDepth 16384

noncomputable section

namespace Cert.KernelIdeal.RowRegion

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F] [Named F]
variable (V : (c : Dev nD) → (b : Ref sig .tc) → Buf (Elt F) ((c : Thread nD τ).loc b))

/-- The input window never moves; output block t starts at row 1024·t; point t's grid coordinate is t. -/
theorem idx1 : ∀ t : Fin cfg1.N, win1_0.index t (0 : Fin 2) = 0 ∧ win1_0.index t (1 : Fin 2) = 0
    ∧ win1_1.index t (0 : Fin 2) = t.val ∧ win1_1.index t (1 : Fin 2) = 0 ∧ ((grid1.coords t) 0).val = t.val :=
  (by decide +kernel : ∀ t : Fin grid1.N, _)

/-- The input block at every point is the whole array as the region finds it. -/
theorem iblk1_whole (c : Dev nD) (t : Fin cfg1.N) :
    (iblk1 V c 0 t : Vec F S16384x128 .f32) = (V c main_v0 : S16384x128.Idx → Elt F .f32) := by
  obtain ⟨e0, e1, -, -, -⟩ := idx1 t
  funext y
  unfold iblk1
  rw [View.read_apply]
  show (V c main_v0 : S16384x128.Idx → Elt F .f32) _ = (V c main_v0 : S16384x128.Idx → Elt F .f32) y
  congr 1
  funext a
  apply Fin.ext
  match a with
  | ⟨0, _⟩ => show win1_0.index t 0 * 16384 + 1 * (y 0).val = (y 0).val; rw [e0]; omega
  | ⟨1, _⟩ => show win1_0.index t 1 * 128 + 1 * (y 1).val = (y 1).val; rw [e1]; omega

/-- Every entry of the output column lies in the block of the point that owns its row. -/
theorem cover1 (i : S8192x1.Idx) :
    ∃ t : Fin cfg1.N, (cfg1.win 1).flush t = true ∧ i ∈ ((cfg1.win 1).blk t).view.set := by
  have hi0 : (i 0).val < 8192 := (i 0).isLt
  have hi1 : (i 1).val < 1 := (i 1).isLt
  have h8 : cfg1.N = 8 := N_1
  obtain ⟨t, ht⟩ : ∃ t : Fin cfg1.N, t.val = (i 0).val / 1024 := ⟨⟨(i 0).val / 1024, by omega⟩, rfl⟩
  obtain ⟨-, -, e2, e3, -⟩ := idx1 t
  refine ⟨t, flush1_1 t, ?_⟩
  show i ∈ ((View.whole main_v1).slice (win1_1.rect t)).set
  rw [View.set_slice_whole, Rect.mem_set_unit]
  intro a
  match a with
  | ⟨0, _⟩ => show win1_1.index t 0 * 1024 ≤ (i 0).val ∧ (i 0).val < win1_1.index t 0 * 1024 + 1024; rw [e2, ht]; omega
  | ⟨1, _⟩ => show win1_1.index t 1 * 1 ≤ (i 1).val ∧ (i 1).val < win1_1.index t 1 * 1 + 1; rw [e3]; omega

/-- The output array after the region is G, once G agrees row by row with what each point's body leaves. -/
theorem final1_of (c : Dev nD) (G : S8192x1.Idx → Elt F .f32)
    (hG : ∀ (t : Fin cfg1.N) (r : Fin 1024) (K : S8192x1.Idx), (K 0).val = 1024 * t.val + r.val →
      (outsAt1 V c t : Vec F S1024x1 .f32) (ix2 (n0 := 1024) (n1 := 1) r 0) = G K) :
    (dat1 V c).arrAt 1 cfg1.N = G := by
  refine (dat1 V c).arrAt_eq_of_cover 1 G (fun t _ => ?_) cover1
  show (cfg1.win 1).cut (grid1.coords t) ((dat1 V c).after 1 t) = _
  rw [after1_1]
  obtain ⟨-, -, e2, e3, -⟩ := idx1 t
  funext j
  have hj0 : (j 0).val < 1024 := (j 0).isLt
  have hj1 : (j 1).val < 1 := (j 1).isLt
  show (outsAt1 V c t : Vec F S1024x1 .f32) j = G (((cfg1.win 1).blk t).view.emb j)
  have hK0 : ((((cfg1.win 1).blk t).view.emb j) 0).val = 1024 * t.val + (j 0).val := by
    show win1_1.index t 0 * 1024 + 1 * (j 0).val = _; rw [e2]; omega
  have hj : j = ix2 (n0 := 1024) (n1 := 1) ⟨(j 0).val, hj0⟩ 0 :=
    funext fun a => Fin.ext (by
      match a with
      | ⟨0, _⟩ => rfl
      | ⟨1, _⟩ => show (j 1).val = 0; omega)
  rw [← hG t ⟨(j 0).val, hj0⟩ _ hK0]
  exact congrArg _ hj

end Cert.KernelIdeal.RowRegion

end
-- ==== Proof.RowSums.lean ====
/-
  From the column-tile recursion to the row term.

  At grid point i the second region's body holds the 1024 anchor rows 1024 i .. 1024 i + 1023 and their positive
  rows, and walks eight column tiles of 1024 rows each; its two running sums start at zero and tile k adds, at row r,
  the off-diagonal exponentials of row 1024 i + r against rows 1024 k .. 1024 k + 1023 of the same half. Written as a
  function of the column number, each tile's contribution is a block of 1024 consecutive columns, so after eight
  tiles the running sum is the sum over all 8192 columns, the diagonal left out. The stored value is then the pair's
  inner product scaled by 1/tau minus the logarithms of the two sums: the row term of pair 1024 i + r.
-/
import proofs.«121964_j57647051047405_2_alg».proof.Proof.RowBlocks
import proofs.«121964_j57647051047405_2_alg».proof.Proof.Payloads
import proofs.«121964_j57647051047405_2_alg».proof.Proof.Sums
import proofs.«121964_j57647051047405_2_alg».proof.Proof.Spec
import Idealize.ShloMosaic.Lib.ValueIdx
import Idealize.ShloMosaic.Lib.Pipeline.Value
import Idealize.ShloMosaic.PureOps.Ideal.Laws

noncomputable section

namespace Cert.KernelIdeal.RowSums

open Cert.KernelIdeal Cert.KernelIdeal.Gen Cert.KernelIdeal.RowBlocks Cert.Contrastive
open Idealize.ShloMosaic Idealize.ShloMosaic.ValueIdx

/-- Pair R's row term over an already normalised array y. -/
def rowTerm (y : S16384x128.Idx → EReal) (R : Fin 8192) : EReal :=
  (∑ d : Fin 128, y (ix2 (anchor R) d) * y (ix2 (positive R) d)) * invTau
    - Ideal.log (∑ s : Fin 8192, if R = s then 0 else Ideal.exp (∑ d : Fin 128, (y (ix2 (anchor R) d) * invTau) * y (ix2 (anchor s) d)))
    - Ideal.log (∑ s : Fin 8192, if R = s then 0 else Ideal.exp (∑ d : Fin 128, (y (ix2 (positive R) d) * invTau) * y (ix2 (positive s) d)))

/-! ## The loaded blocks are rows of the array -/

/-- A block of 1024 consecutive rows, read at (r, d), is the array at row (first row + r), column d. -/
theorem rows_at (y : Vec Ideal S16384x128 .f32) (off : Fin 2 → Nat)
    (inb : ∀ a, off a + S1024x128.size a ≤ S16384x128.size a) (R : Fin 16384) (r : Fin 1024) (d : Fin 128)
    (h0 : off 0 + r.val = R.val) (h1 : off 1 = 0) :
    rows y off inb (ix2 r d) = y (ix2 R d) := by
  show y _ = y _
  refine congrArg y (funext fun a => Fin.ext ?_)
  match a with
  | ⟨0, _⟩ => show off 0 + 1 * r.val = R.val; omega
  | ⟨1, _⟩ => show off 1 + 1 * d.val = d.val; omega

/-- The off-diagonal exponential of row R against column number n of one half of the array, as a function of the
    column number; zero on the diagonal and beyond the last column. -/
def term (y : S16384x128.Idx → EReal) (half : Fin 8192 → Fin 16384) (R : Fin 8192) (n : ℕ) : EReal :=
  if hn : n < 8192 then
    (if R.val = n then 0 else Ideal.exp (∑ d : Fin 128, (y (ix2 (half R) d) * invTau) * y (ix2 (half ⟨n, hn⟩) d)))
  else 0

/-- At a column number below 8192 the term is the masked exponential against that row. -/
theorem term_fin (y : S16384x128.Idx → EReal) (half : Fin 8192 → Fin 16384) (R s : Fin 8192) :
    term y half R s.val
      = if R = s then 0 else Ideal.exp (∑ d : Fin 128, (y (ix2 (half R) d) * invTau) * y (ix2 (half s) d)) := by
  unfold term
  rw [dif_pos s.isLt]
  by_cases h : R = s
  · rw [if_pos h, if_pos (congrArg Fin.val h)]
  · rw [if_neg h, if_neg (fun hv => h (Fin.ext hv))]

theorem trips_eq : k1_t1_loop.trips = 8 := by decide

/-- One tile's summand among the anchors, in terms of the array. -/
theorem tile_a (i : grid1.Coords) (y : Vec Ideal S16384x128 .f32) (r : Fin 1024) (R : Fin 8192)
    (hR : R.val = (i 0).val * 1024 + r.val) (k : Fin k1_t1_loop.trips) (s : Fin 1024) :
    (if (i 0).val * 1024 + r.val = k.val * 1024 + s.val then 0
      else Ideal.exp (∑ d : Fin 128, (rows y (k1_off1 i) (k1_off1_inb i) (ix2 r d) * invTau)
        * rows y (k1_off3 k) (k1_off3_inb k) (ix2 s d)))
      = term y anchor R (k.val * 1024 + s.val) := by
  have hk : k.val < 8 := Nat.lt_of_lt_of_le k.isLt (le_of_eq trips_eq)
  have hs := s.isLt
  have hr := r.isLt
  have hn : k.val * 1024 + s.val < 8192 := by omega
  have a0 : k1_off1 i 0 = 1024 * (i 0).val := congrFun (k1_off1_eq i) 0
  have a1 : k1_off1 i 1 = 0 := congrFun (k1_off1_eq i) 1
  have b0 : k1_off3 k 0 = 1024 * k.val := congrFun (k1_off3_eq k) 0
  have b1 : k1_off3 k 1 = 0 := congrFun (k1_off3_eq k) 1
  unfold term
  rw [dif_pos hn, ← hR]
  by_cases h : R.val = k.val * 1024 + s.val
  · rw [if_pos h, if_pos h]
  · rw [if_neg h, if_neg h]
    refine congrArg Ideal.exp (Finset.sum_congr rfl fun d _ => ?_)
    rw [rows_at y _ _ (anchor R) r d (by show k1_off1 i 0 + r.val = R.val; omega) a1,
      rows_at y _ _ (anchor ⟨k.val * 1024 + s.val, hn⟩) s d
        (by show k1_off3 k 0 + s.val = k.val * 1024 + s.val; omega) b1]

/-- One tile's summand among the positives. -/
theorem tile_p (i : grid1.Coords) (y : Vec Ideal S16384x128 .f32) (r : Fin 1024) (R : Fin 8192)
    (hR : R.val = (i 0).val * 1024 + r.val) (k : Fin k1_t1_loop.trips) (s : Fin 1024) :
    (if (i 0).val * 1024 + r.val = k.val * 1024 + s.val then 0
      else Ideal.exp (∑ d : Fin 128, (rows y (k1_off2 i) (k1_off2_inb i) (ix2 r d) * invTau)
        * rows y (k1_off4 k) (k1_off4_inb k) (ix2 s d)))
      = term y positive R (k.val * 1024 + s.val) := by
  have hk : k.val < 8 := Nat.lt_of_lt_of_le k.isLt (le_of_eq trips_eq)
  have hs := s.isLt
  have hr := r.isLt
  have hn : k.val * 1024 + s.val < 8192 := by omega
  have a0 : k1_off2 i 0 = 1024 * (i 0).val + 8192 := congrFun (k1_off2_eq i) 0
  have a1 : k1_off2 i 1 = 0 := congrFun (k1_off2_eq i) 1
  have b0 : k1_off4 k 0 = 1024 * k.val + 8192 := congrFun (k1_off4_eq k) 0
  have b1 : k1_off4 k 1 = 0 := congrFun (k1_off4_eq k) 1
  unfold term
  rw [dif_pos hn, ← hR]
  by_cases h : R.val = k.val * 1024 + s.val
  · rw [if_pos h, if_pos h]
  · rw [if_neg h, if_neg h]
    refine congrArg Ideal.exp (Finset.sum_congr rfl fun d _ => ?_)
    rw [rows_at y _ _ (positive R) r d (by show k1_off2 i 0 + r.val = R.val + 8192; omega) a1,
      rows_at y _ _ (positive ⟨k.val * 1024 + s.val, hn⟩) s d
        (by show k1_off4 k 0 + s.val = k.val * 1024 + s.val + 8192; omega) b1]

/-! ## The running sums after k tiles -/

theorem zero_a (r : Fin 1024) : k1_pay3 (F := Ideal) (ix2 r (0 : Fin 1)) = 0 := Ideal.ofBits_zero_f32
theorem zero_p (r : Fin 1024) : k1_pay4 (F := Ideal) (ix2 r (0 : Fin 1)) = 0 := Ideal.ofBits_zero_f32

/-- After k tiles the anchor running sum at row r holds the first k tiles' terms. -/
theorem carried_fst (i : grid1.Coords) (y : Vec Ideal S16384x128 .f32) (r : Fin 1024) (R : Fin 8192)
    (hR : R.val = (i 0).val * 1024 + r.val) (k : ℕ) (hk : k ≤ 8) :
    (carried i y k).1 (ix2 r (0 : Fin 1))
      = ∑ j ∈ Finset.range k, ∑ s : Fin 1024, term y anchor R (j * 1024 + s.val) := by
  induction k with
  | zero => rw [Finset.sum_range_zero]; exact zero_a r
  | succ k ih =>
    have h : k < k1_t1_loop.trips := by rw [trips_eq]; omega
    rw [carried, dif_pos h, Finset.sum_range_succ, ← ih (by omega)]
    show k1_pay6 (F := Ideal) i _ ⟨k, h⟩ (carried i y k).1 _ (ix2 r (0 : Fin 1)) = _
    rw [Payloads.acc_a_at]
    refine congrArg ((carried i y k).1 (ix2 r (0 : Fin 1)) + ·) (Finset.sum_congr rfl fun s _ => ?_)
    exact tile_a i y r R hR ⟨k, h⟩ s

/-- After k tiles the positive running sum at row r holds the first k tiles' terms. -/
theorem carried_snd (i : grid1.Coords) (y : Vec Ideal S16384x128 .f32) (r : Fin 1024) (R : Fin 8192)
    (hR : R.val = (i 0).val * 1024 + r.val) (k : ℕ) (hk : k ≤ 8) :
    (carried i y k).2 (ix2 r (0 : Fin 1))
      = ∑ j ∈ Finset.range k, ∑ s : Fin 1024, term y positive R (j * 1024 + s.val) := by
  induction k with
  | zero => rw [Finset.sum_range_zero]; exact zero_p r
  | succ k ih =>
    have h : k < k1_t1_loop.trips := by rw [trips_eq]; omega
    rw [carried, dif_pos h, Finset.sum_range_succ, ← ih (by omega)]
    show k1_pay7 (F := Ideal) i _ ⟨k, h⟩ (carried i y k).2 _ (ix2 r (0 : Fin 1)) = _
    rw [Payloads.acc_p_at]
    refine congrArg ((carried i y k).2 (ix2 r (0 : Fin 1)) + ·) (Finset.sum_congr rfl fun s _ => ?_)
    exact tile_p i y r R hR ⟨k, h⟩ s

/-! ## The stored row term -/

/-- The value the body stores at row r of block i is the row term of pair 1024 i + r. -/
theorem block_at (i : grid1.Coords) (y : Vec Ideal S16384x128 .f32) (r : Fin 1024) (R : Fin 8192)
    (hR : R.val = (i 0).val * 1024 + r.val) :
    k1_pay8 (F := Ideal) (rows y (k1_off1 i) (k1_off1_inb i)) (rows y (k1_off2 i) (k1_off2_inb i))
      (carried i y 8).1 (carried i y 8).2 (ix2 r (0 : Fin 1)) = rowTerm y R := by
  have hr := r.isLt
  have a0 : k1_off1 i 0 = 1024 * (i 0).val := congrFun (k1_off1_eq i) 0
  have a1 : k1_off1 i 1 = 0 := congrFun (k1_off1_eq i) 1
  have c0 : k1_off2 i 0 = 1024 * (i 0).val + 8192 := congrFun (k1_off2_eq i) 0
  have c1 : k1_off2 i 1 = 0 := congrFun (k1_off2_eq i) 1
  have e1 : ∀ d : Fin 128, rows y (k1_off1 i) (k1_off1_inb i) (ix2 r d) = y (ix2 (anchor R) d) := fun d =>
    rows_at y _ _ (anchor R) r d (by show k1_off1 i 0 + r.val = R.val; omega) a1
  have e2 : ∀ d : Fin 128, rows y (k1_off2 i) (k1_off2_inb i) (ix2 r d) = y (ix2 (positive R) d) := fun d =>
    rows_at y _ _ (positive R) r d (by show k1_off2 i 0 + r.val = R.val + 8192; omega) c1
  rw [Payloads.row_at, carried_fst i y r R hR 8 (le_refl 8), carried_snd i y r R hR 8 (le_refl 8),
    sum_tiles (term y anchor R), sum_tiles (term y positive R)]
  unfold rowTerm
  refine congrArg₂ (· - ·) (congrArg₂ (· - ·) ?_ ?_) ?_
  · exact congrArg (· * invTau) (Finset.sum_congr rfl fun d _ => by rw [e1, e2])
  · exact congrArg Ideal.log (Finset.sum_congr rfl fun s _ => term_fin y anchor R s)
  · exact congrArg Ideal.log (Finset.sum_congr rfl fun s _ => term_fin y positive R s)

end Cert.KernelIdeal.RowSums

end
-- ==== Proof.Bridge.lean ====
/-
  The tiled program's result is the loss in its "multiply by 1/τ" spelling.

  Folding the program's segments over the launch memory: the first region leaves the normalised input in its output
  array; the second reads that array whole at every point and leaves, at row R of its output column, pair R's row
  term; the closing host operations return minus the mean of the column. Substituting the normalised array's entries
  into the row terms gives `lossK` of the input.
-/
import proofs.«121964_j57647051047405_2_alg».proof.Proof.Gen.KernelIdeal.Frame
import proofs.«121964_j57647051047405_2_alg».proof.Proof.Spec
import proofs.«121964_j57647051047405_2_alg».proof.Proof.HostTail
import proofs.«121964_j57647051047405_2_alg».proof.Proof.TailValue
import proofs.«121964_j57647051047405_2_alg».proof.Proof.Normalize
import proofs.«121964_j57647051047405_2_alg».proof.Proof.RowBlocks
import proofs.«121964_j57647051047405_2_alg».proof.Proof.RowRegion
import proofs.«121964_j57647051047405_2_alg».proof.Proof.RowSums

set_option maxRecDepth 16384

noncomputable section

namespace Cert.KernelIdeal.Bridge

open Cert.KernelIdeal Cert.KernelIdeal.Gen Cert.Contrastive
open Cert.KernelIdeal.RunValue Cert.KernelIdeal.Normalize Cert.KernelIdeal.RowBlocks Cert.KernelIdeal.RowRegion Cert.KernelIdeal.RowSums
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The column of row terms over an already normalised array. -/
def column (y : S16384x128.Idx → EReal) : S8192x1.Idx → EReal := fun K => rowTerm y (K 0)

/-- After the first region its output array holds the normalised input. -/
theorem first_region (c : Dev nD) :
    (V1 (F := Ideal) m ρ c main_v0 : S16384x128.Idx → EReal) = normalised (m ((c : Thread nD τ).loc main_arg0)) :=
  (W1_arr (F := Ideal) m ρ c 1).trans (final0 (V0 (F := Ideal) m ρ) c)

/-- After the second region its output column holds the row terms of the array it found. -/
theorem second_region (c : Dev nD) :
    (W2 (F := Ideal) m ρ c (Proc.devRef .tc main_v1) : S8192x1.Idx → EReal) = column (V1 (F := Ideal) m ρ c main_v0) := by
  refine (W2_arr (F := Ideal) m ρ c 1).trans ?_
  refine final1_of (V1 (F := Ideal) m ρ) c (column (V1 (F := Ideal) m ρ c main_v0)) fun t r K hK => ?_
  obtain ⟨-, -, -, -, ec⟩ := idx1 t
  unfold outsAt1
  rw [out_eq, iblk1_whole]
  exact block_at (grid1.coords t) (V1 (F := Ideal) m ρ c main_v0) r (K 0) (by rw [ec, hK]; omega)

/-- A row term over the normalised input is the input's row term. -/
theorem rowTerm_normalised (z : Arr) (R : Fin 8192) : rowTerm (normalised z) R = rowK z R := rfl

/-- The result buffer after the run holds `lossK` of the input. -/
theorem result_value (c : Dev nD) :
    (W3 (F := Ideal) m ρ c (Proc.devRef .tc main_v4) : S_.Idx → EReal) = fun _ => lossK (m ((c : Thread nD τ).loc main_arg0)) := by
  rw [result_eq, second_region, first_region, meanNeg_eq]
  funext _
  unfold lossK column
  simp only [rowTerm_normalised]

end Cert.KernelIdeal.Bridge

end
-- ==== Proof.LibRealsInEReal.lean ====
/-
  Real numbers inside the extended reals.

  At the ideal reading a float is an extended real, and the laws a value proof needs — distributing a product over a
  sum, exchanging a factor with a finite sum — hold only among real numbers. This file names the extended reals that
  are real numbers (`IsReal`) and shows them closed under what kernels compute with: sums, products, differences,
  maxima, finite sums, the square root of a sum of squares, and the quotient by a nonzero real. It also has the
  inclusion of the reals commuting with finite sums (`coe_sum`).
-/
import Idealize.ShloMosaic.PureOps.Ideal.Laws

noncomputable section

open Idealize.ShloMosaic

namespace Cert.Lib.RealsInEReal

/-! ## Real numbers inside the extended reals -/

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of squares of real numbers is a nonnegative real number. -/
theorem sum_sq_real {ι : Type*} (s : Finset ι) (f : ι → EReal) (h : ∀ i ∈ s, IsReal (f i)) :
    ∃ r : ℝ, 0 ≤ r ∧ ∑ i ∈ s, f i * f i = (r : EReal) := by
  classical
  have hr : ∀ i : ι, ∃ r : ℝ, i ∈ s → f i = (r : EReal) := fun i => by
    by_cases hi : i ∈ s
    · obtain ⟨r, hr⟩ := h i hi; exact ⟨r, fun _ => hr⟩
    · exact ⟨0, fun hi' => absurd hi' hi⟩
  choose g hg using hr
  refine ⟨∑ i ∈ s, g i * g i, Finset.sum_nonneg fun i _ => mul_self_nonneg _, ?_⟩
  rw [coe_sum]
  exact Finset.sum_congr rfl fun i hi => by rw [hg i hi, EReal.coe_mul]

/-- The square root of a nonnegative real number is a nonnegative real number. -/
theorem sqrt_real {r : ℝ} (h : 0 ≤ r) : Ideal.sqrt (r : EReal) = ((Real.sqrt r : ℝ) : EReal) := by
  rw [Ideal.sqrt_coe, if_neg (not_lt.mpr h)]

/-- A real number divided by a nonzero real number is their real quotient. -/
theorem div_real (a : ℝ) {n : ℝ} (h : n ≠ 0) : Ideal.div (a : EReal) (n : EReal) = ((a / n : ℝ) : EReal) := by
  rw [Ideal.div_coe h, ← EReal.coe_mul, mul_one_div]

theorem IsReal.div {x y : EReal} (hx : IsReal x) (hy : IsReal y) (h0 : y ≠ 0) : IsReal (Ideal.div x y) := by
  obtain ⟨a, rfl⟩ := hx; obtain ⟨n, rfl⟩ := hy
  have hn : n ≠ 0 := fun h => h0 (by rw [h]; rfl)
  exact ⟨a / n, div_real a hn⟩

end Cert.Lib.RealsInEReal

end
-- ==== Proof.RefValue.lean ====
/-
  The plain array program's result is the row-contrastive loss in its "divide by tau" spelling, and the
  precondition's program answers 1 only on arrays of real numbers.

  The program is read one stage at a time, each stage at one index. Every row of the input is divided by its clamped
  Euclidean norm; the two halves of the normalised array are the anchor rows and the positive rows; within each half
  the matrix of inner products is divided by tau, exponentiated, and set to zero on the diagonal, and its row sums
  are the two "others" sums; the pair products summed over a row, divided by tau and exponentiated, give the pair
  term; the logarithm of the pair term over the product of the two sums is the row's log-ratio, and the result is
  minus the mean of the log-ratios. Every sum the program starts from the zero word is the bare sum.

  The precondition compares each entry's absolute value with plus infinity and takes the conjunction: an extended
  real whose absolute value is below the top element is neither infinity, so it is a real number.
-/
import proofs.«121964_j57647051047405_2_alg».proof.Proof.Gen.ReferenceIdeal.Read
import proofs.«121964_j57647051047405_2_alg».proof.Proof.Gen.Pre_finite_inputs
import proofs.«121964_j57647051047405_2_alg».proof.Proof.Spec
import proofs.«121964_j57647051047405_2_alg».proof.Proof.LibRealsInEReal
import Idealize.ShloMosaic.Lib.ValueIdx
import Idealize.ShloMosaic.Lib.Pipeline.Value
import Idealize.ShloMosaic.Lib.Affine
import Idealize.ShloMosaic.Lib.ReduceAll
import Idealize.ShloMosaic.PureOps.Ideal.Laws

noncomputable section

open Idealize.ShloMosaic Idealize.ShloMosaic.ValueIdx

namespace Cert.ReferenceIdeal.RefValue

open Cert.ReferenceIdeal Cert.ReferenceIdeal.Read Cert.Contrastive

/-- The input array of the reference program, an array of 16384 rows of 128 extended reals. -/
abbrev In := (⟨S16384x128, .f32⟩ : BufTy).Contents (Elt Ideal)

/-! ## The normalised array -/

/-- The clamped row norm: square root of the row's sum of squares, raised to the lower clamp. -/
theorem norm_apply (x0 : In) (r : Fin 16384) :
    val_main_v2 (F := Ideal) x0 (ix2 r (0 : Fin 1)) = rowNorm x0 r := by
  have e1 : idx_main_call0_v2 (ix2 r (0 : Fin 1)) = ix1 r :=
    funext fun a => Fin.ext (by match a with | ⟨0, _⟩ => rfl)
  have e2 : ∀ k : Fin 128, idx_main_call0_v1 (ix1 r) k = ix2 r k := fun k =>
    funext fun a => Fin.ext (by match a with | ⟨0, _⟩ => rfl | ⟨1, _⟩ => rfl)
  rw [val_main_v2_apply, val_main_v0_apply, val_main_call0_v2_apply, e1, val_main_call0_v1_apply,
    val_main_v1_apply, val_main_cst_apply, val_main_call0_cst_apply]
  simp only [e2, val_main_call0_v0_apply, Ideal.ofBits_def, Ideal.ofBits_zero_f32, zero_add, Ideal.mulf_def,
    Ideal.maximumf_def, Ideal.hostUnary_sqrt_def]
  rfl

/-- Each entry of the normalised array is the input entry over its row's clamped norm. -/
theorem unit_apply (x0 : In) (r : Fin 16384) (d : Fin 128) :
    val_main_v4 (F := Ideal) x0 (ix2 r d) = unit x0 r d := by
  have e1 : idx_main_v3 (ix2 r d) = ix2 r (0 : Fin 1) :=
    funext fun a => Fin.ext (by match a with | ⟨0, _⟩ => rfl | ⟨1, _⟩ => rfl)
  rw [val_main_v4_apply, val_main_v3_apply, e1, norm_apply]
  rfl

/-- The first half of the normalised array holds the anchor rows. -/
theorem anchor_apply (x0 : In) (r : Fin 8192) (d : Fin 128) :
    val_main_v5 (F := Ideal) x0 (ix2 r d) = unit x0 (anchor r) d := by
  have e1 : idx_main_v5 (ix2 r d) = ix2 (anchor r) d :=
    funext fun a => Fin.ext (by match a with | ⟨0, _⟩ => rfl | ⟨1, _⟩ => rfl)
  rw [val_main_v5_apply, e1, unit_apply]

/-- The second half holds the positive rows. -/
theorem positive_apply (x0 : In) (r : Fin 8192) (d : Fin 128) :
    val_main_v6 (F := Ideal) x0 (ix2 r d) = unit x0 (positive r) d := by
  have e1 : idx_main_v6 (ix2 r d) = ix2 (positive r) d :=
    funext fun a => Fin.ext (by match a with | ⟨0, _⟩ => exact Nat.add_comm _ _ | ⟨1, _⟩ => rfl)
  rw [val_main_v6_apply, e1, unit_apply]

/-! ## The diagonal mask -/

/-- The mask compares the row number with the column number as 32-bit words; both are below 8192, so the words are
    equal exactly when the numbers are. -/
theorem mask_apply (r s : Fin 8192) :
    val_main_v11 (F := Ideal) (ix2 r s) = if r = s then 1#1 else 0#1 := by
  rw [val_main_v11_apply, val_main_v10_apply, val_main_v7_apply, val_main_v8_apply, val_main_v9_apply,
    val_main_c_apply]
  show IntOp.cmpi .eq (IntOp.addi (BitVec.ofNat 32 r.val) 0#32) (BitVec.ofNat 32 s.val) = _
  rw [IntOp.addi, BitVec.add_zero]
  by_cases h : r = s
  · subst h; rw [if_pos rfl]; exact IntOp.cmpi_eq.mpr rfl
  · rw [if_neg h]
    refine eq_zero_of_ne_one (fun hc => h ?_)
    have e2 := congrArg BitVec.toNat (IntOp.cmpi_eq.mp hc)
    rw [BitVec.toNat_ofNat, BitVec.toNat_ofNat] at e2
    have hr := r.isLt
    have hs := s.isLt
    exact Fin.ext (by omega)

/-! ## The similarities within each half -/

/-- The anchor similarity matrix: inner products of normalised anchor rows. -/
theorem simA_apply (x0 : In) (r s : Fin 8192) :
    val_main_v13 (F := Ideal) x0 (ix2 r s) = dot x0 (anchor r) (anchor s) := by
  have el : ∀ k : Fin 128, lidx_main_v13 (ix2 r s) k = ix2 r k := fun k =>
    funext fun a => Fin.ext (by match a with | ⟨0, _⟩ => rfl | ⟨1, _⟩ => rfl)
  have er : ∀ k : Fin 128, idx_main_v12 (ridx_main_v13 (ix2 r s) k) = ix2 s k := fun k =>
    funext fun a => Fin.ext (by match a with | ⟨0, _⟩ => rfl | ⟨1, _⟩ => rfl)
  rw [val_main_v13_apply]
  simp only [val_main_v12_apply, el, er, anchor_apply]
  rfl

/-- The positive similarity matrix: inner products of normalised positive rows. -/
theorem simP_apply (x0 : In) (r s : Fin 8192) :
    val_main_v24 (F := Ideal) x0 (ix2 r s) = dot x0 (positive r) (positive s) := by
  have el : ∀ k : Fin 128, lidx_main_v24 (ix2 r s) k = ix2 r k := fun k =>
    funext fun a => Fin.ext (by match a with | ⟨0, _⟩ => rfl | ⟨1, _⟩ => rfl)
  have er : ∀ k : Fin 128, idx_main_v23 (ridx_main_v24 (ix2 r s) k) = ix2 s k := fun k =>
    funext fun a => Fin.ext (by match a with | ⟨0, _⟩ => rfl | ⟨1, _⟩ => rfl)
  rw [val_main_v24_apply]
  simp only [val_main_v23_apply, el, er, positive_apply]
  rfl

/-- The masked exponentials among the anchors: zero on the diagonal, exp(similarity / tau) off it. -/
theorem expA_apply (x0 : In) (r s : Fin 8192) :
    val_main_v17 (F := Ideal) x0 (ix2 r s)
      = if r = s then 0 else Ideal.exp (Ideal.div (dot x0 (anchor r) (anchor s)) tau) := by
  rw [val_main_v17_apply, mask_apply, val_main_call1_v1_apply, val_main_call1_v0_apply, val_main_cst_1_apply,
    val_main_v16_apply, val_main_v15_apply, simA_apply, val_main_v14_apply, val_main_cst_0_apply]
  by_cases h : r = s
  · rw [if_pos h, if_pos h, select_one]; exact Ideal.ofBits_zero_f32
  · rw [if_neg h, if_neg h, select_zero]; rfl

/-- The masked exponentials among the positives. -/
theorem expP_apply (x0 : In) (r s : Fin 8192) :
    val_main_v28 (F := Ideal) x0 (ix2 r s)
      = if r = s then 0 else Ideal.exp (Ideal.div (dot x0 (positive r) (positive s)) tau) := by
  rw [val_main_v28_apply, mask_apply, val_main_call2_v1_apply, val_main_call2_v0_apply, val_main_cst_5_apply,
    val_main_v27_apply, val_main_v26_apply, simP_apply, val_main_v25_apply, val_main_cst_4_apply]
  by_cases h : r = s
  · rw [if_pos h, if_pos h, select_one]; exact Ideal.ofBits_zero_f32
  · rw [if_neg h, if_neg h, select_zero]; rfl

/-- The row sums of the masked anchor exponentials. -/
theorem othersA_apply (x0 : In) (r : Fin 8192) :
    val_main_v29 (F := Ideal) x0 (ix1 r) = othersR x0 anchor r := by
  have e : ∀ k : Fin 8192, idx_main_v29 (ix1 r) k = ix2 r k := fun k =>
    funext fun a => Fin.ext (by match a with | ⟨0, _⟩ => rfl | ⟨1, _⟩ => rfl)
  rw [val_main_v29_apply, val_main_cst_6_apply]
  simp only [e, expA_apply, Ideal.ofBits_def, Ideal.ofBits_zero_f32, zero_add]
  rfl

/-- The row sums of the masked positive exponentials. -/
theorem othersP_apply (x0 : In) (r : Fin 8192) :
    val_main_v30 (F := Ideal) x0 (ix1 r) = othersR x0 positive r := by
  have e : ∀ k : Fin 8192, idx_main_v30 (ix1 r) k = ix2 r k := fun k =>
    funext fun a => Fin.ext (by match a with | ⟨0, _⟩ => rfl | ⟨1, _⟩ => rfl)
  rw [val_main_v30_apply, val_main_cst_7_apply]
  simp only [e, expP_apply, Ideal.ofBits_def, Ideal.ofBits_zero_f32, zero_add]
  rfl

/-! ## The pair term and the loss -/

/-- The exponential of each pair's similarity over tau. -/
theorem pair_apply (x0 : In) (r : Fin 8192) :
    val_main_v22 (F := Ideal) x0 (ix1 r) = Ideal.exp (Ideal.div (dot x0 (anchor r) (positive r)) tau) := by
  have e : ∀ k : Fin 128, idx_main_v19 (ix1 r) k = ix2 r k := fun k =>
    funext fun a => Fin.ext (by match a with | ⟨0, _⟩ => rfl | ⟨1, _⟩ => rfl)
  rw [val_main_v22_apply, val_main_v21_apply, val_main_v19_apply, val_main_v20_apply, val_main_cst_3_apply,
    val_main_cst_2_apply]
  simp only [e, val_main_v18_apply, anchor_apply, positive_apply, Ideal.ofBits_def, Ideal.ofBits_zero_f32, zero_add,
    Ideal.mulf_def]
  rfl

/-- Each pair's log-ratio. -/
theorem row_apply (x0 : In) (r : Fin 8192) :
    val_main_v33 (F := Ideal) x0 (ix1 r) = rowR x0 r := by
  rw [val_main_v33_apply, val_main_v32_apply, val_main_v31_apply, pair_apply, othersA_apply, othersP_apply]
  rfl

/-- A sum over the rank-1 index set of 8192 entries is the sum over its coordinate. -/
theorem sum_idx1 {M : Type*} [AddCommMonoid M] (f : S8192.Idx → M) : ∑ j, f j = ∑ r : Fin 8192, f (ix1 r) := by
  let e : Fin 8192 ≃ S8192.Idx :=
    { toFun := ix1, invFun := fun j => j 0, left_inv := fun _ => rfl, right_inv := fun j => (eq_ix1 j).symm }
  exact (Equiv.sum_comp e f).symm

/-- The reference program's result is minus the mean log-ratio. -/
theorem ref_eq (x0 : (⟨Cert.ReferenceIdeal.S16384x128, .f32⟩ : BufTy).Contents (Elt Ideal)) :
    Cert.ReferenceIdeal.Read.val_main_v36 (F := Ideal) x0 = fun _ => Cert.Contrastive.lossR x0 := by
  funext i
  rw [val_main_v36_apply, val_main_v35_apply, val_main_v34_apply, val_main_cst_9_apply, val_main_cst_8_apply,
    sum_idx1]
  simp only [row_apply, Ideal.ofBits_def, Ideal.ofBits_zero_f32, zero_add]
  rfl

/-! ## The precondition: every entry is a real number -/

instance : Subsingleton Cert.Pre_finite_inputs.S_.Idx := ⟨fun a b => funext fun d => d.elim0⟩

/-- An extended real whose absolute value, max y (-y), is below the top element is a real number. -/
theorem isReal_of_abs_lt_top (y : EReal) (h : Ideal.cmp .olt (max y (-y)) ⊤ = 1#1) :
    Cert.Lib.RealsInEReal.IsReal y := by
  induction y using EReal.rec with
  | bot => exact absurd h (by simp [Ideal.cmp])
  | top => exact absurd h (by simp [Ideal.cmp])
  | coe r => exact ⟨r, rfl⟩

/-- If the precondition's program answers 1 then every entry of the array is a real number: the program compares each
    entry's absolute value with plus infinity and takes the conjunction over all entries. -/
theorem real_of_pre [Cert.Pre_finite_inputs.Facts] (x : FVec Ideal Cert.Pre_finite_inputs.S16384x128 .f32)
    (h : Cert.Pre_finite_inputs.fn (F := Ideal) x = fun _ => 1#1) : ∀ i, Cert.Lib.RealsInEReal.IsReal (x i) := by
  intro i
  have h0 := congrFun h ValueIdx.ix0
  dsimp only [Cert.Pre_finite_inputs.fn] at h0
  have h1 := Host.reduce_andi_all _ _ _ _ _ h0 i
  rw [cmpf_apply] at h1
  have h2 : (broadcastInDim Cert.Pre_finite_inputs.S16384x128 ![] Cert.Pre_finite_inputs.Facts.bcast_S_S16384x128
      (constant (F := Ideal) Cert.Pre_finite_inputs.S_ .f32 0x7F800000#32)) i = (⊤ : EReal) := by
    rw [broadcastInDim_apply _ _ _ i ValueIdx.ix0 (fun a => a.elim0)]
    simp [constant_apply, Ideal.ofBits, Ideal.ieee]
  rw [h2] at h1
  exact isReal_of_abs_lt_top (x i) h1

end Cert.ReferenceIdeal.RefValue

end
-- ==== Proof.Algebra.lean ====
/-
  The two spellings of the row-contrastive loss agree on real inputs.

  Every entry of the input is a real number. A row's sum of squares is then a nonnegative real, its square root a
  nonnegative real, and the maximum of that with the positive clamp a positive real; so every normalised entry, and
  every inner product of normalised rows, is a real number. Among real numbers a common factor moves out of a finite
  sum, and dividing by τ is multiplying by 1/τ; so the scaled inner product is the inner product over τ, and the two
  spellings sum the same similarities. Each similarity is the exponential of a real, hence positive, and every row
  has at least one other row in its half; so both sums A and P are positive reals, and
  log (e^y / (A · P)) = y − log A − log P.
-/
import proofs.«121964_j57647051047405_2_alg».proof.Proof.Spec
import proofs.«121964_j57647051047405_2_alg».proof.Proof.LibRealsInEReal

noncomputable section

open Idealize.ShloMosaic Idealize.ShloMosaic.ValueIdx
open Cert.Lib.RealsInEReal

namespace Cert.Contrastive

/-! ## The constants -/

/-- The temperature word denotes the real 5033165 / 2^24. -/
theorem tau_eq : tau = ((5033165 / 16777216 : ℝ) : EReal) := by
  simp [tau, Ideal.ofBits, Ideal.ieee, -EReal.coe_mul] <;> norm_num

/-- The clamp word denotes the real 9223372 · 2^(-63). -/
theorem eps_eq : eps = ((9223372 * (2 : ℝ) ^ (-63 : Int) : ℝ) : EReal) := by
  simp [eps, Ideal.ofBits, Ideal.ieee, -EReal.coe_mul] <;> norm_num

/-- The clamp is a positive real. -/
theorem eps_pos : ∃ e : ℝ, 0 < e ∧ eps = (e : EReal) :=
  ⟨9223372 * (2 : ℝ) ^ (-63 : Int), by positivity, eps_eq⟩

/-- Dividing by τ is multiplying by 1/τ, for every extended real. -/
theorem div_tau (x : EReal) : Ideal.div x tau = x * invTau := by
  rw [tau_eq, Ideal.div_coe (by norm_num)]
  unfold invTau
  congr 2
  norm_num

/-! ## Facts about real numbers inside the extended reals -/

/-- Among real entries, a real factor on the first entry of every product moves out of the sum. -/
theorem sum_scaled {ι : Type*} (s : Finset ι) (u v : ι → EReal) (hu : ∀ i, IsReal (u i)) (hv : ∀ i, IsReal (v i))
    (c : ℝ) : ∑ i ∈ s, (u i * (c : EReal)) * v i = (∑ i ∈ s, u i * v i) * (c : EReal) := by
  choose a ha using hu
  choose b hb using hv
  obtain rfl : u = fun i => (a i : EReal) := funext ha
  obtain rfl : v = fun i => (b i : EReal) := funext hb
  simp only [← EReal.coe_mul, ← coe_sum]
  congr 1
  rw [Finset.sum_mul]
  exact Finset.sum_congr rfl fun i _ => by ring

/-- For a real y and positive reals A and P: log (e^y / (A · P)) = y − log A − log P. -/
theorem log_ratio (y A P : ℝ) (hA : 0 < A) (hP : 0 < P) :
    Ideal.log (Ideal.div (Ideal.exp (y : EReal)) ((A : EReal) * (P : EReal)))
      = (y : EReal) - Ideal.log (A : EReal) - Ideal.log (P : EReal) := by
  have hAP : 0 < A * P := mul_pos hA hP
  have hq : 0 < Real.exp y / (A * P) := div_pos (Real.exp_pos y) hAP
  rw [Ideal.exp_coe, ← EReal.coe_mul, div_real _ hAP.ne', Ideal.log_coe, Ideal.log_coe, Ideal.log_coe,
    if_neg (not_le.mpr hq), if_neg (not_le.mpr hA), if_neg (not_le.mpr hP), ← EReal.coe_sub, ← EReal.coe_sub,
    Real.log_div (Real.exp_pos y).ne' hAP.ne', Real.log_mul hA.ne' hP.ne', Real.log_exp]
  congr 1
  ring

/-! ## The normalised rows are real -/

section RealInput

variable (z : Arr) (hz : ∀ i, IsReal (z i))

include hz

/-- A row's clamped norm is a positive real. -/
theorem rowNorm_pos (r : Fin 16384) : ∃ n : ℝ, 0 < n ∧ rowNorm z r = (n : EReal) := by
  obtain ⟨e, he, hE⟩ := eps_pos
  obtain ⟨q, hq, hS⟩ := sum_sq_real Finset.univ (fun d : Fin 128 => z (ix2 r d)) (fun d _ => hz _)
  refine ⟨max (Real.sqrt q) e, lt_max_of_lt_right he, ?_⟩
  unfold rowNorm
  rw [hS, sqrt_real hq, hE]
  exact (EReal.coe_strictMono.monotone.map_max).symm

/-- Every normalised entry is real. -/
theorem unit_real (r : Fin 16384) (d : Fin 128) : IsReal (unit z r d) := by
  obtain ⟨n, hn, hN⟩ := rowNorm_pos z hz r
  obtain ⟨a, ha⟩ := hz (ix2 r d)
  unfold unit
  rw [hN, ha]
  exact ⟨a / n, div_real a hn.ne'⟩

/-- Every inner product of normalised rows is real. -/
theorem dot_real (a b : Fin 16384) : IsReal (dot z a b) :=
  isReal_sum _ _ fun d _ => (unit_real z hz a d).mul (unit_real z hz b d)

/-- The inner product over τ is a real number. -/
theorem dot_div_tau_real (a b : Fin 16384) : ∃ y : ℝ, Ideal.div (dot z a b) tau = (y : EReal) := by
  obtain ⟨x, hx⟩ := dot_real z hz a b
  rw [hx, tau_eq]
  exact ⟨_, div_real x (by norm_num)⟩

/-! ## The two spellings sum the same similarities -/

/-- Scaling the first row by 1/τ entry by entry divides the inner product by τ. -/
theorem dotScaled_eq (a b : Fin 16384) : dotScaled z a b = Ideal.div (dot z a b) tau := by
  rw [div_tau]
  unfold dotScaled dot invTau
  exact sum_scaled Finset.univ _ _ (unit_real z hz a) (unit_real z hz b) _

theorem othersK_eq (half : Fin 8192 → Fin 16384) (r : Fin 8192) : othersK z half r = othersR z half r := by
  unfold othersK othersR
  refine Finset.sum_congr rfl fun s _ => ?_
  rw [dotScaled_eq z hz]

/-- The sum of a row's similarities to the other rows of its half is a positive real: every term is the
    exponential of a real or zero, and there is another row. -/
theorem othersR_pos (half : Fin 8192 → Fin 16384) (r : Fin 8192) :
    ∃ A : ℝ, 0 < A ∧ othersR z half r = (A : EReal) := by
  choose y hy using fun s : Fin 8192 => dot_div_tau_real z hz (half r) (half s)
  refine ⟨∑ s : Fin 8192, if r = s then 0 else Real.exp (y s), ?_, ?_⟩
  · have hne : ∃ s : Fin 8192, r ≠ s := by
      refine ⟨⟨if r.val = 0 then 1 else 0, by split_ifs <;> omega⟩, fun h => ?_⟩
      have h' := congrArg Fin.val h
      simp only at h'
      split_ifs at h' <;> omega
    obtain ⟨s0, hs0⟩ := hne
    refine Finset.sum_pos' (fun s _ => ?_) ⟨s0, Finset.mem_univ _, ?_⟩
    · split_ifs
      · exact le_rfl
      · exact (Real.exp_pos _).le
    · rw [if_neg hs0]
      exact Real.exp_pos _
  · unfold othersR
    rw [coe_sum]
    refine Finset.sum_congr rfl fun s _ => ?_
    rw [hy s]
    split_ifs
    · rfl
    · rfl

/-! ## Row by row, and the loss -/

theorem rowK_eq_rowR (r : Fin 8192) : rowK z r = rowR z r := by
  obtain ⟨A, hA, hAe⟩ := othersR_pos z hz anchor r
  obtain ⟨P, hP, hPe⟩ := othersR_pos z hz positive r
  obtain ⟨y, hy⟩ := dot_div_tau_real z hz (anchor r) (positive r)
  unfold rowK rowR
  rw [othersK_eq z hz, othersK_eq z hz, ← div_tau, hAe, hPe, hy]
  exact (log_ratio y A P hA hP).symm

end RealInput

/-- On real inputs the two spellings of the loss are the same number. -/
theorem lossK_eq_lossR (z : Arr) (hz : ∀ i, Cert.Lib.RealsInEReal.IsReal (z i)) : lossK z = lossR z := by
  unfold lossK lossR
  rw [Finset.sum_congr rfl fun r _ => rowK_eq_rowR z hz r]

end Cert.Contrastive

end
-- ==== Proof.lean ====
/-
  The certificate's five claims.

  Both programs compute a row-contrastive loss of 8192 (anchor, positive) pairs of 128-entry rows. The plain array
  program normalises the rows, forms the two 8192 × 8192 similarity matrices exp(⟨·,·⟩/τ) with their diagonals
  zeroed, and returns minus the mean of log(e^{⟨a_r,p_r⟩/τ} / (A_r · P_r)), A_r and P_r the row sums. The tiled program
  normalises the rows in one region and, in a second, computes for 1024 pairs at a time the same two row sums tile by
  tile — the rows pre-multiplied by 1/τ — and the row term ⟨a_r,p_r⟩·(1/τ) − log A_r − log P_r; the mean is taken outside.
  The tiled program's constant 1/τ is named as the exact reciprocal of the τ the array program divides by.

  The three frames are the generated runs. The sanctioned idealization is the naming of that one constant at its three
  sites. For the value claim, the tiled program's result is read off its run as `lossK` of the input (module Bridge),
  the array program's as `lossR` (module RefValue), and on finite inputs — every entry a real number, which is what the
  precondition says — the two agree (module Algebra): every intermediate is then real, the row norms are at least the
  positive clamp, both row sums are positive, and log(e^y / (A·P)) = y − log A − log P.
-/
import proofs.«121964_j57647051047405_2_alg».proof.Defs
import proofs.«121964_j57647051047405_2_alg».proof.Proof.Gen.Kernel
import proofs.«121964_j57647051047405_2_alg».proof.Proof.Gen.Kernel.Frame
import proofs.«121964_j57647051047405_2_alg».proof.Proof.Gen.KernelIdeal
import proofs.«121964_j57647051047405_2_alg».proof.Proof.Gen.KernelIdeal.Frame
import proofs.«121964_j57647051047405_2_alg».proof.Proof.Gen.ReferenceIdeal
import proofs.«121964_j57647051047405_2_alg».proof.Proof.Gen.Pre_finite_inputs
import proofs.«121964_j57647051047405_2_alg».proof.Proof.Gen.ReferenceIdeal.Run
import proofs.«121964_j57647051047405_2_alg».proof.Proof.Gen.ReferenceIdeal.Read
import proofs.«121964_j57647051047405_2_alg».proof.Proof.KernelRun
import proofs.«121964_j57647051047405_2_alg».proof.Proof.Bridge
import proofs.«121964_j57647051047405_2_alg».proof.Proof.RefValue
import proofs.«121964_j57647051047405_2_alg».proof.Proof.Algebra
import Idealize.ShloMosaic.Adequacy
import Idealize.ShloMosaic.Init

noncomputable section

namespace Cert.Proof

open Idealize.ShloMosaic Idealize.SL.Sem

/-- The one ledger entry's statement: the table gives the name the rational 16777216/5033165, and the printed
    constant is that value at the ideal reading. -/
theorem named_inv_tau :
    IdealRules.named_const.Statement Cert.KernelIdeal.κ "inv_tau" .f32 0x40555555#32 ((16777216 / 5033165 : ℝ) : EReal) :=
  IdealRules.named_const.statement Cert.KernelIdeal.κ "inv_tau" .f32 0x40555555#32 ((16777216 / 5033165 : ℝ) : EReal) rfl

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, ⟨named_inv_tau, named_inv_tau, named_inv_tau⟩, ?_⟩
  · -- the array program's frame: its run with the result dropped
    exact fun m ρ _ => (θ_run Cert.ReferenceIdeal.defs _ _).mono (fun _ h c => (h c).2)
      (Cert.ReferenceIdeal.Value.run (F := Ideal) m ρ)
  · -- equal results: lossK of the input on one side, lossR on the other, equal on real inputs
    intro m ρ m' ρ' hpre hagree
    refine ⟨fun c => fun _ => Cert.Contrastive.lossK
        (m ((c.tc : Thread Cert.KernelIdeal.nD Cert.KernelIdeal.τ).loc Cert.KernelIdeal.main_arg0)), ?_, ?_⟩
    · exact (θ_run Cert.KernelIdeal.defs _ _).mono
        (fun _ h c => ⟨(h c).1.trans (Cert.KernelIdeal.Bridge.result_value m ρ c), (h c).2⟩)
        (Cert.KernelIdeal.RunValue.run_result (F := Ideal) m ρ)
    · refine (θ_run Cert.ReferenceIdeal.defs _ _).mono (fun _ h c => ⟨(h c).1.trans ?_, (h c).2⟩)
        (Cert.ReferenceIdeal.Value.run (F := Ideal) m' ρ')
      rw [Cert.ReferenceIdeal.Read.val_main_v36_eq, Cert.ReferenceIdeal.RefValue.ref_eq, hagree c]
      funext _
      exact (Cert.Contrastive.lossK_eq_lossR _ (Cert.ReferenceIdeal.RefValue.real_of_pre _ (hpre c))).symm⟩

end Cert.Proof

end
